-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8x4096x128 : Shape := ⟨4, ![4, 8, 4096, 128]⟩
abbrev S4096 : Shape := ⟨1, ![4096]⟩
abbrev S_ : Shape := ⟨0, ![]⟩

class Facts : Prop where
  bcast_S_S4x8x4096x128 : S_.BroadcastsInDim S4x8x4096x128 (![] : Fin 0 → Fin S4x8x4096x128.rank)
  reducesTo_S4x8x4096x128_S_d0_1_2_3 : S4x8x4096x128.ReducesTo [0, 1, 2, 3] S_
  h_S_ : 0 < S_.numel

variable [Facts]

def fn {F : FTy → Type} [FloatOps F] (main_arg0 : FVec F S4x8x4096x128 .f32) (main_arg1 : FVec F S4x8x4096x128 .f32) (main_arg2 : IVec S4096 32) : IVec S_ 1 :=
  let main_v0 : FVec F S4x8x4096x128 .f32 := Host.absf main_arg0
  let main_cst : FVec F S_ .f32 := constant S_ .f32 0x7F800000#32
  let main_v1 : FVec F S4x8x4096x128 .f32 := broadcastInDim S4x8x4096x128 ![] bcast_S_S4x8x4096x128 main_cst
  let main_v2 : IVec S4x8x4096x128 1 := cmpf .olt main_v0 main_v1
  let main_c : IVec S_ 1 := constantI S_ 1 1#1
  let main_v3 : IVec S_ 1 := (fun x v => Host.reduce IntOp.andi x v reducesTo_S4x8x4096x128_S_d0_1_2_3 h_S_) main_v2 main_c
  let main_v4 : FVec F S4x8x4096x128 .f32 := Host.absf main_arg1
  let main_cst_0 : FVec F S_ .f32 := constant S_ .f32 0x7F800000#32
  let main_v5 : FVec F S4x8x4096x128 .f32 := broadcastInDim S4x8x4096x128 ![] bcast_S_S4x8x4096x128 main_cst_0
  let main_v6 : IVec S4x8x4096x128 1 := cmpf .olt main_v4 main_v5
  let main_c_1 : IVec S_ 1 := constantI S_ 1 1#1
  let main_v7 : IVec S_ 1 := (fun x v => Host.reduce IntOp.andi x v reducesTo_S4x8x4096x128_S_d0_1_2_3 h_S_) main_v6 main_c_1
  let main_v8 : IVec S_ 1 := andi main_v3 main_v7
  main_v8
-- ==== Kernel.lean ====
abbrev S4x8x4096x128 : Shape := ⟨4, ![4, 8, 4096, 128]⟩
abbrev S4096 : Shape := ⟨1, ![4096]⟩
abbrev S1x1x4096x128 : Shape := ⟨4, ![1, 1, 4096, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x8x4096x128, .f32⟩
  | .hbm, ⟨1, _⟩ => ⟨S4x8x4096x128, .f32⟩
  | .hbm, ⟨2, _⟩ => ⟨S4096, .i32⟩
  | .hbm, ⟨3, _⟩ => ⟨S4x8x4096x128, .f32⟩
  | .hbm, ⟨4, _⟩ => ⟨S4x8x4096x128, .f32⟩
  | .local _ .vmem, ⟨0, _⟩ => ⟨S1x1x4096x128, .f32⟩
  | .local _ .vmem, ⟨1, _⟩ => ⟨S1x1x4096x128, .f32⟩
  | .local _ .vmem, ⟨2, _⟩ => ⟨S1x1x4096x128, .f32⟩
  | .local _ .vmem, ⟨3, _⟩ => ⟨S1x1x4096x128, .f32⟩
  | .local _ .vmem, ⟨4, _⟩ => ⟨S1x1x4096x128, .f32⟩
  | .local _ .vmem, ⟨5, _⟩ => ⟨S1x1x4096x128, .f32⟩
  | .local _ .vmem, ⟨6, _⟩ => ⟨S1x1x4096x128, .f32⟩
  | .local _ .vmem, ⟨7, _⟩ => ⟨S1x1x4096x128, .f32⟩
  | _, _ => ⟨S4x8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  iota_S1x1x4096x128_d3_w32 : S1x1x4096x128.Iotas .tc 32 [3]
  inb_S1x1x4096x128_S1x1x4096x128_0_0_0_0 : ∀ a, (![0, 0, 0, 0] : Fin 4 → Nat) a + S1x1x4096x128.size a ≤ S1x1x4096x128.size a
  h_S1x1x4096x128 : 0 < S1x1x4096x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x4096x128.size a ≤ S4x8x4096x128.size a
  hwx0_0 : ∀ i : grid0.Coords, EltTy.bits .f32 = 32 ∨ (Rect.block (s := S4x8x4096x128) S1x1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096x128.size a ≤ S4x8x4096x128.size a
  hwx0_1 : ∀ i : grid0.Coords, EltTy.bits .f32 = 32 ∨ (Rect.block (s := S4x8x4096x128) S1x1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x4096x128.size a ≤ S4x8x4096x128.size a
  hwx0_2 : ∀ i : grid0.Coords, EltTy.bits .f32 = 32 ∨ (Rect.block (s := S4x8x4096x128) S1x1x4096x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096x128.size a ≤ S4x8x4096x128.size a
  hwx0_3 : ∀ i : grid0.Coords, EltTy.bits .f32 = 32 ∨ (Rect.block (s := S4x8x4096x128) S1x1x4096x128.size (cc0_transform_3 i) (hinb0_3 i)).WholeWords (EltTy.packing .f32)

variable [Facts₀]

abbrev win0_0 : Pipeline.Window sig grid0 :=
  Pipeline.Window.ofSpec (Memref.whole main_arg0) S1x1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x4096x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8x4096x128 : Shape := ⟨4, ![4, 8, 4096, 128]⟩
abbrev S4096 : Shape := ⟨1, ![4096]⟩
abbrev S0 : Shape := ⟨1, ![0]⟩
abbrev S4x8x4096x64 : Shape := ⟨4, ![4, 8, 4096, 64]⟩
abbrev S_ : Shape := ⟨0, ![]⟩
abbrev S64x128 : Shape := ⟨2, ![64, 128]⟩

abbrev nBuf : Space → Nat
  | .hbm => 22
  | .vmem => 0
  | .smem => 0
  | _ => 0

abbrev bufTy : (tb : Table) → Fin (tcTables nBuf tb) → BufTy
  | .hbm, ⟨0, _⟩ => ⟨S4x8x4096x128, .f32⟩
  | .hbm, ⟨1, _⟩ => ⟨S4x8x4096x128, .f32⟩
  | .hbm, ⟨2, _⟩ => ⟨S4096, .i32⟩
  | .hbm, ⟨3, _⟩ => ⟨S0, .i32⟩
  | .hbm, ⟨4, _⟩ => ⟨S0, .i32⟩
  | .hbm, ⟨5, _⟩ => ⟨S4x8x4096x64, .f32⟩
  | .hbm, ⟨6, _⟩ => ⟨S4x8x4096x64, .f32⟩
  | .hbm, ⟨7, _⟩ => ⟨S_, .f32⟩
  | .hbm, ⟨8, _⟩ => ⟨S4x8x4096x64, .f32⟩
  | .hbm, ⟨9, _⟩ => ⟨S4x8x4096x64, .f32⟩
  | .hbm, ⟨10, _⟩ => ⟨S_, .f32⟩
  | .hbm, ⟨11, _⟩ => ⟨S4x8x4096x64, .f32⟩
  | .hbm, ⟨12, _⟩ => ⟨S4x8x4096x64, .f32⟩
  | .hbm, ⟨13, _⟩ => ⟨S64x128, .i32⟩
  | .hbm, ⟨14, _⟩ => ⟨S64x128, .i32⟩
  | .hbm, ⟨15, _⟩ => ⟨S_, .i32⟩
  | .hbm, ⟨16, _⟩ => ⟨S64x128, .i32⟩
  | .hbm, ⟨17, _⟩ => ⟨S64x128, .i32⟩
  | .hbm, ⟨18, _⟩ => ⟨S64x128, .i1⟩
  | .hbm, ⟨19, _⟩ => ⟨S64x128, .f32⟩
  | .hbm, ⟨20, _⟩ => ⟨S4x8x4096x128, .f32⟩
  | .hbm, ⟨21, _⟩ => ⟨S4x8x4096x128, .f32⟩
  | _, _ => ⟨S4x8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  hz_S0 : S0.numel = 0
  slices_S4x8x4096x128_S4x8x4096x64_0_0_0_0 : S4x8x4096x128.Slices ![0, 0, 0, 0] S4x8x4096x64
  bcast_S_S4x8x4096x64 : S_.BroadcastsInDim S4x8x4096x64 (![] : Fin 0 → Fin S4x8x4096x64.rank)
  bcast_S_S64x128 : S_.BroadcastsInDim S64x128 (![] : Fin 0 → Fin S64x128.rank)
  scatter_S4x8x4096x64_S0_S4x8x4096x64_0123_n_n_0_wf : ScatterDims.WF S4x8x4096x64 S0 S4x8x4096x64 [0, 1, 2, 3] [] [] 0
  dot_S4x8x4096x64_S64x128_S4x8x4096x128_3_0_012_1_n_n_wf : DotDims.WF S4x8x4096x64 S64x128 S4x8x4096x128 [3] [0] [0, 1, 2] [1] [] []

variable [Facts₀]

def scatter_S4x8x4096x64_S0_S4x8x4096x64_0123_n_n_0 : ScatterDims S4x8x4096x64 S0 S4x8x4096x64 where
  updateWindowDims := [0, 1, 2, 3]
  insertedWindowDims := []
  scatterDimsToOperandDims := []
  indexVectorDim := 0
  wf := scatter_S4x8x4096x64_S0_S4x8x4096x64_0123_n_n_0_wf
def dot_S4x8x4096x64_S64x128_S4x8x4096x128_3_0_012_1_n_n : DotDims S4x8x4096x64 S64x128 S4x8x4096x128 where
  lhsContracting := [3]
  rhsContracting := [0]
  lhsNonContracting := [0, 1, 2]
  rhsNonContracting := [1]
  lhsBatch := []
  rhsBatch := []
  wf := dot_S4x8x4096x64_S64x128_S4x8x4096x128_3_0_012_1_n_n_wf

class Facts : Prop extends Facts₀ where

variable [Facts]
-- ==== Proof.LaneMask.lean ====
/-
  The function both programs compute, and the one law that joins them.

  The result keeps the first 64 entries of every row of 128 (the last axis) and puts zero in the other
  64: `keepLow x i = x i` when the last coordinate of `i` is below 64, and `0` otherwise.

  One program gets there by a select against a lane mask. The other multiplies each row's first 64
  entries by the 64 × 128 matrix with ones on its diagonal and zeros elsewhere, so that entry `d` of
  the product is the sum over `k < 64` of `f k · [k = d]`. On the extended reals `y · 1 = y` and
  `y · 0 = 0` hold for EVERY `y` (also the infinite ones), so the sum has at most one term that is
  not zero: it is `f d` when `d < 64`, and `0` when no `k` equals `d`. No finiteness is needed.
-/
import Idealize.ShloMosaic.PureOps.Ideal
import Idealize.ShloMosaic.Lib.ValueIdx

noncomputable section

namespace Cert.LaneMask

open Idealize.ShloMosaic

/-- The arrays' shape: 4 × 8 × 4096 rows of 128 entries. -/
abbrev Full : Shape := ⟨4, ![4, 8, 4096, 128]⟩

/-- Keep the first 64 entries of each row, zero the rest. -/
def keepLow (x : Full.Idx → EReal) : Full.Idx → EReal :=
  fun i => if (i 3).val < 64 then x i else 0

/-- A sum against one column of the rectangular identity: only the diagonal term survives, and there is
    one only when the column's number is below 64. -/
theorem sum_mul_diag (f : Fin 64 → EReal) (d : ℕ) :
    ∑ k : Fin 64, f k * (if k.val = d then (1 : EReal) else 0) = if h : d < 64 then f ⟨d, h⟩ else 0 := by
  split
  · rename_i h
    rw [Finset.sum_eq_single (⟨d, h⟩ : Fin 64)]
    · rw [if_pos rfl, mul_one]
    · intro k _ hk
      rw [if_neg (fun e => hk (Fin.ext e)), mul_zero]
    · intro h'
      exact absurd (Finset.mem_univ _) h'
  · rename_i h
    refine Finset.sum_eq_zero fun k _ => ?_
    rw [if_neg (fun (e : k.val = d) => h (e ▸ k.isLt)), mul_zero]

end Cert.LaneMask

end
-- ==== Proof.KernelValue.lean ====
/-
  The kernel's two result arrays, as whole-array functions of its arguments.

  The grid has 4 × 8 points; at point (b, h) each of the four windows holds the block of its array at block
  index (b, h, 0, 0) — one whole 4096 × 128 plane. The body builds a lane mask (the last coordinate, as a
  32-bit integer, compared signed with 64), loads each input block whole, keeps the entries whose lane number
  is below 64 and replaces the others by the float zero, and stores the result whole into the matching output
  block. So what point (b, h) writes back is the plane (b, h) of the masked copy of the argument array; the
  32 planes tile the array; and after the run each result array is the masked copy `keepLow` of its argument.
-/
import proofs.«101398_j13932873908527_1_alg».proof.Proof.Gen.KernelIdeal.Value
import proofs.«101398_j13932873908527_1_alg».proof.Proof.LaneMask
import Idealize.ShloMosaic.Lib.Pipeline.Value
import Idealize.ShloMosaic.Lib.ValueIdx
import Idealize.ShloMosaic.PureOps.Ideal.Laws

set_option maxRecDepth 16384

noncomputable section

namespace Cert.KernelIdeal.Masked

open Cert.KernelIdeal Cert.KernelIdeal.Gen Idealize.ShloMosaic Idealize.ShloMosaic.TcCoe Idealize.SL.Sem
open Idealize.ShloMosaic.Pipeline (Dat)
open Cert.LaneMask (keepLow)

variable (m : (ℓ : Loc nD τ sig) → Buf (Elt Ideal) ℓ) (ρ : Dev nD → PrngReg)

theorem hz : (![0, 0, 0, 0] : Fin 4 → Nat) = fun _ => 0 := funext fun a => by fin_cases a <;> rfl

/-! ## The lane mask and the masked block, at an index -/

/-- For a lane number below 128, its 32-bit word is signed-less-than the word of 64 exactly when the number is
    below 64 (decided over the 128 lanes). -/
theorem lane_lt : ∀ n : Fin 128, IntOp.cmpi .slt (BitVec.ofNat 32 (0 * 128 + n.val)) 64#32 = 1 ↔ n.val < 64 := by
  decide +kernel

/-- The mask's bit at an index is set exactly on the first 64 lanes. -/
theorem mask_apply (j : S1x1x4096x128.Idx) : k0_pay1 j = 1 ↔ (j 3).val < 64 :=
  lane_lt (j 3)

/-- The masked block at an index: the loaded entry where the lane number is below 64, the float zero (the real
    number 0) elsewhere — stated against any array entry `X i` the loaded entry equals, `i` having the same last
    coordinate. -/
theorem k0_pay2_keep (x : Vec Ideal S1x1x4096x128 .f32) (X : Cert.LaneMask.Full.Idx → EReal) (j : S1x1x4096x128.Idx)
    (i : Cert.LaneMask.Full.Idx) (hx : x j = X i) (h3 : (i 3).val = (j 3).val) :
    k0_pay2 (F := Ideal) x j = keepLow X i := by
  show Scalar.select (k0_pay1 j) (x j) (Scalar.ofBits (F := Ideal) .f32 0x00000000#32) = _
  unfold Scalar.select Cert.LaneMask.keepLow
  rw [h3]
  by_cases h : (j 3).val < 64
  · rw [if_pos h, if_pos ((mask_apply j).2 h), hx]
  · rw [if_neg h, if_neg (fun e => h ((mask_apply j).1 e))]
    exact Ideal.ofBits_zero_f32

/-- The masked block at an index: the loaded entry where the lane number is below 64, the float zero (the real
    number 0) elsewhere — stated against any array entry `X i` the loaded entry equals, `i` having the same last
    coordinate. -/
theorem k0_pay3_keep (x : Vec Ideal S1x1x4096x128 .f32) (X : Cert.LaneMask.Full.Idx → EReal) (j : S1x1x4096x128.Idx)
    (i : Cert.LaneMask.Full.Idx) (hx : x j = X i) (h3 : (i 3).val = (j 3).val) :
    k0_pay3 (F := Ideal) x j = keepLow X i := by
  show Scalar.select (k0_pay1 j) (x j) (Scalar.ofBits (F := Ideal) .f32 0x00000000#32) = _
  unfold Scalar.select Cert.LaneMask.keepLow
  rw [h3]
  by_cases h : (j 3).val < 64
  · rw [if_pos h, if_pos ((mask_apply j).2 h), hx]
  · rw [if_neg h, if_neg (fun e => h ((mask_apply j).1 e))]
    exact Ideal.ofBits_zero_f32

/-! ## The index maps, decided over the 32 grid points -/

/-- Each input window's block index is its output window's, and no window moves along the last two axes. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = win0_2.index t (2 : Fin 4) ∧ win0_0.index t (3 : Fin 4) = win0_2.index t (3 : Fin 4)
    ∧ win0_1.index t (0 : Fin 4) = win0_3.index t (0 : Fin 4) ∧ win0_1.index t (1 : Fin 4) = win0_3.index t (1 : Fin 4)
    ∧ win0_1.index t (2 : Fin 4) = win0_3.index t (2 : Fin 4) ∧ win0_1.index t (3 : Fin 4) = win0_3.index t (3 : Fin 4)
    ∧ win0_2.index t (2 : Fin 4) = 0 ∧ win0_2.index t (3 : Fin 4) = 0
    ∧ win0_3.index t (2 : Fin 4) = 0 ∧ win0_3.index t (3 : Fin 4) = 0 :=
  (by decide +kernel : ∀ t : Fin grid0.N, _)

/-- Every plane (b, h) is some point's block, for either output window. -/
theorem idx_onto2 : ∀ (q0 : Fin 4) (q1 : Fin 8), ∃ t : Fin cfg0.N, win0_2.index t = ![q0.val, q1.val, 0, 0] :=
  (by decide +kernel : ∀ (q0 : Fin 4) (q1 : Fin 8), ∃ t : Fin grid0.N, win0_2.index t = ![q0.val, q1.val, 0, 0])
theorem idx_onto3 : ∀ (q0 : Fin 4) (q1 : Fin 8), ∃ t : Fin cfg0.N, win0_3.index t = ![q0.val, q1.val, 0, 0] :=
  (by decide +kernel : ∀ (q0 : Fin 4) (q1 : Fin 8), ∃ t : Fin grid0.N, win0_3.index t = ![q0.val, q1.val, 0, 0])

/-! ## Output window 2 (from argument array main_arg0) -/

/-- WHAT POINT `t` WRITES BACK to output window 2 is block `t` of the masked copy of argument array main_arg0: the body
    loads input window 0's block whole, masks it lane by lane, and stores the result whole; the input's and the
    output's blocks at `t` sit at the same place of their arrays, and a block spans whole rows, so the lane
    number inside the block is the last coordinate in the array. -/
theorem flushed2_eq (c : Dev nD) (t : Fin cfg0.N) :
    (dats m 0 c).flushed 2 t = ((cfg0.win 2).blk t).view.read (Elt Ideal) (keepLow (V m c main_arg0)) := by
  rw [Value.flushed2]
  unfold out0_2
  rw [View.canon_unit_zero hz]
  simp only [View.ld_unit_zero (S := S1x1x4096x128) hz]
  obtain ⟨a0, a1, a2, a3, b0, b1, b2, b3, z2, z3, y2, y3⟩ := idx_facts t
  funext j
  have e : ((cfg0.win 0).blk t).view.emb j = ((cfg0.win 2).blk t).view.emb j := by
    funext a; apply Fin.ext
    match a with
    | ⟨0, _⟩ => show win0_0.index t (0 : Fin 4) * 1 + 1 * (j 0).val = win0_2.index t (0 : Fin 4) * 1 + 1 * (j 0).val; omega
    | ⟨1, _⟩ => show win0_0.index t (1 : Fin 4) * 1 + 1 * (j 1).val = win0_2.index t (1 : Fin 4) * 1 + 1 * (j 1).val; omega
    | ⟨2, _⟩ => show win0_0.index t (2 : Fin 4) * 4096 + 1 * (j 2).val = win0_2.index t (2 : Fin 4) * 4096 + 1 * (j 2).val; omega
    | ⟨3, _⟩ => show win0_0.index t (3 : Fin 4) * 128 + 1 * (j 3).val = win0_2.index t (3 : Fin 4) * 128 + 1 * (j 3).val; omega
  have e3 : ((((cfg0.win 2).blk t).view.emb j) 3).val = (j 3).val := by
    show win0_2.index t (3 : Fin 4) * 128 + 1 * (j 3).val = (j 3).val; omega
  show k0_pay2 (F := Ideal) (iblk m c 0 t) j = keepLow (V m c main_arg0) (((cfg0.win 2).blk t).view.emb j)
  exact k0_pay2_keep (iblk m c 0 t) (V m c main_arg0) j (((cfg0.win 2).blk t).view.emb j) (congrArg (V m c main_arg0) e) e3

/-- An index of the array is in point `t`'s block iff each coordinate is in the block's range on its axis. -/
theorem mem_blk2 (t : Fin cfg0.N) (i : S4x8x4096x128.Idx) :
    i ∈ ((cfg0.win 2).blk t).view.set ↔ ∀ a : Fin 4, win0_2.index t a * S1x1x4096x128.size a ≤ (i a).val ∧ (i a).val < win0_2.index t a * S1x1x4096x128.size a + S1x1x4096x128.size a := by
  show i ∈ ((View.whole main_v0_0).slice (win0_2.rect t)).set ↔ _
  rw [View.set_slice_whole, Rect.mem_set_unit]
  exact Iff.rfl

/-- Every index of the array is in some point's block: index (b, h, s, d) in the block of the point whose block
    index is (b, h, 0, 0), a block being one whole (s, d) plane. -/
theorem cover2 (i : S4x8x4096x128.Idx) :
    ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 4096 := (i 2).isLt
  have hi3 : (i 3).val < 128 := (i 3).isLt
  obtain ⟨t, ht⟩ := idx_onto2 ⟨(i 0).val, hi0⟩ ⟨(i 1).val, hi1⟩
  have q0 : win0_2.index t (0 : Fin 4) = (i 0).val := congrFun ht 0
  have q1 : win0_2.index t (1 : Fin 4) = (i 1).val := congrFun ht 1
  have q2 : win0_2.index t (2 : Fin 4) = 0 := congrFun ht 2
  have q3 : win0_2.index t (3 : Fin 4) = 0 := congrFun ht 3
  refine ⟨t, flush0_2 t, ?_⟩
  rw [mem_blk2]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 4096 ≤ (i 2).val ∧ (i 2).val < win0_2.index t (2 : Fin 4) * 4096 + 4096; omega
  | ⟨3, _⟩ => show win0_2.index t (3 : Fin 4) * 128 ≤ (i 3).val ∧ (i 3).val < win0_2.index t (3 : Fin 4) * 128 + 128; omega

/-- THE ARRAY after the run: the masked copy of argument array main_arg0. -/
theorem final2 (c : Dev nD) : (dats m 0 c).arrAt 2 cfg0.N = keepLow (V m c main_arg0) :=
  (dats m 0 c).arrAt_eq_of_cover 2 (keepLow (V m c main_arg0)) (fun t _ => flushed2_eq m c t) cover2

/-! ## Output window 3 (from argument array main_arg1) -/

/-- WHAT POINT `t` WRITES BACK to output window 3 is block `t` of the masked copy of argument array main_arg1: the body
    loads input window 1's block whole, masks it lane by lane, and stores the result whole; the input's and the
    output's blocks at `t` sit at the same place of their arrays, and a block spans whole rows, so the lane
    number inside the block is the last coordinate in the array. -/
theorem flushed3_eq (c : Dev nD) (t : Fin cfg0.N) :
    (dats m 0 c).flushed 3 t = ((cfg0.win 3).blk t).view.read (Elt Ideal) (keepLow (V m c main_arg1)) := by
  rw [Value.flushed3]
  unfold out0_3
  rw [View.canon_unit_zero hz]
  simp only [View.ld_unit_zero (S := S1x1x4096x128) hz]
  obtain ⟨a0, a1, a2, a3, b0, b1, b2, b3, z2, z3, y2, y3⟩ := idx_facts t
  funext j
  have e : ((cfg0.win 1).blk t).view.emb j = ((cfg0.win 3).blk t).view.emb j := by
    funext a; apply Fin.ext
    match a with
    | ⟨0, _⟩ => show win0_1.index t (0 : Fin 4) * 1 + 1 * (j 0).val = win0_3.index t (0 : Fin 4) * 1 + 1 * (j 0).val; omega
    | ⟨1, _⟩ => show win0_1.index t (1 : Fin 4) * 1 + 1 * (j 1).val = win0_3.index t (1 : Fin 4) * 1 + 1 * (j 1).val; omega
    | ⟨2, _⟩ => show win0_1.index t (2 : Fin 4) * 4096 + 1 * (j 2).val = win0_3.index t (2 : Fin 4) * 4096 + 1 * (j 2).val; omega
    | ⟨3, _⟩ => show win0_1.index t (3 : Fin 4) * 128 + 1 * (j 3).val = win0_3.index t (3 : Fin 4) * 128 + 1 * (j 3).val; omega
  have e3 : ((((cfg0.win 3).blk t).view.emb j) 3).val = (j 3).val := by
    show win0_3.index t (3 : Fin 4) * 128 + 1 * (j 3).val = (j 3).val; omega
  show k0_pay3 (F := Ideal) (iblk m c 1 t) j = keepLow (V m c main_arg1) (((cfg0.win 3).blk t).view.emb j)
  exact k0_pay3_keep (iblk m c 1 t) (V m c main_arg1) j (((cfg0.win 3).blk t).view.emb j) (congrArg (V m c main_arg1) e) e3

/-- An index of the array is in point `t`'s block iff each coordinate is in the block's range on its axis. -/
theorem mem_blk3 (t : Fin cfg0.N) (i : S4x8x4096x128.Idx) :
    i ∈ ((cfg0.win 3).blk t).view.set ↔ ∀ a : Fin 4, win0_3.index t a * S1x1x4096x128.size a ≤ (i a).val ∧ (i a).val < win0_3.index t a * S1x1x4096x128.size a + S1x1x4096x128.size a := by
  show i ∈ ((View.whole main_v0_1).slice (win0_3.rect t)).set ↔ _
  rw [View.set_slice_whole, Rect.mem_set_unit]
  exact Iff.rfl

/-- Every index of the array is in some point's block: index (b, h, s, d) in the block of the point whose block
    index is (b, h, 0, 0), a block being one whole (s, d) plane. -/
theorem cover3 (i : S4x8x4096x128.Idx) :
    ∃ t : Fin cfg0.N, (cfg0.win 3).flush t = true ∧ i ∈ ((cfg0.win 3).blk t).view.set := by
  have hi0 : (i 0).val < 4 := (i 0).isLt
  have hi1 : (i 1).val < 8 := (i 1).isLt
  have hi2 : (i 2).val < 4096 := (i 2).isLt
  have hi3 : (i 3).val < 128 := (i 3).isLt
  obtain ⟨t, ht⟩ := idx_onto3 ⟨(i 0).val, hi0⟩ ⟨(i 1).val, hi1⟩
  have q0 : win0_3.index t (0 : Fin 4) = (i 0).val := congrFun ht 0
  have q1 : win0_3.index t (1 : Fin 4) = (i 1).val := congrFun ht 1
  have q2 : win0_3.index t (2 : Fin 4) = 0 := congrFun ht 2
  have q3 : win0_3.index t (3 : Fin 4) = 0 := congrFun ht 3
  refine ⟨t, flush0_3 t, ?_⟩
  rw [mem_blk3]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 1 ≤ (i 1).val ∧ (i 1).val < win0_3.index t (1 : Fin 4) * 1 + 1; omega
  | ⟨2, _⟩ => show win0_3.index t (2 : Fin 4) * 4096 ≤ (i 2).val ∧ (i 2).val < win0_3.index t (2 : Fin 4) * 4096 + 4096; omega
  | ⟨3, _⟩ => show win0_3.index t (3 : Fin 4) * 128 ≤ (i 3).val ∧ (i 3).val < win0_3.index t (3 : Fin 4) * 128 + 128; omega

/-- THE ARRAY after the run: the masked copy of argument array main_arg1. -/
theorem final3 (c : Dev nD) : (dats m 0 c).arrAt 3 cfg0.N = keepLow (V m c main_arg1) :=
  (dats m 0 c).arrAt_eq_of_cover 3 (keepLow (V m c main_arg1)) (fun t _ => flushed3_eq m c t) cover3

/-! ## The run, read -/

/-- The frame run re-posted: each result array at the masked copy of its argument array, the arguments unchanged. -/
theorem run : θ_run defs (onTc (τ := τ) (main (F := Ideal))) ⟨m, fun _ => 0, ρ⟩ fun r => ∀ c : Dev nD,
      r.2.mem ((c : Thread nD τ).loc main_v0_0) = keepLow (m ((c : Thread nD τ).loc main_arg0))
      ∧ r.2.mem ((c : Thread nD τ).loc main_v0_1) = keepLow (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final2 m c), (h c).2.1.trans (final3 m c), (h c).2.2⟩)
    (Cert.KernelIdeal.Value.run_blocks m ρ)

end Cert.KernelIdeal.Masked

end
-- ==== Proof.RefRun.lean ====
/-
  The reference program's run, read back.

  The reference is a straight line of nineteen host operations. Per argument array `x` it
  * cuts the first 64 entries out of every row of 128 (`lowHalf x`),
  * writes that whole piece into an all-zero array of the same shape by a scatter with an empty index
    tensor and the overwriting body (`cache x`),
  * builds the 64 × 128 matrix whose entry (r, d) is 1 when r = d and 0 otherwise, from two iotas, an
    integer compare and a conversion to float (`eye`),
  * and contracts the last axis of the first with the first axis of the second (`result x`).
  Every weakly fair execution of the program terminates with its two result arrays at `result` of the
  two float arguments and all three arguments unchanged.
-/
import proofs.«101398_j13932873908527_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The first 64 entries of every row. -/
def lowHalf (x : (⟨S4x8x4096x128, .f32⟩ : BufTy).Contents (Elt F)) : (⟨S4x8x4096x64, .f32⟩ : BufTy).Contents (Elt F) :=
  extractStridedSlice S4x8x4096x64 ![0, 0, 0, 0] x slices_S4x8x4096x128_S4x8x4096x64_0_0_0_0

/-- The array of zeros the piece is written into. -/
def zeros : (⟨S4x8x4096x64, .f32⟩ : BufTy).Contents (Elt F) :=
  broadcastInDim S4x8x4096x64 ![] bcast_S_S4x8x4096x64 (constant S_ .f32 0x00000000#32)

/-- The piece written over the zeros: a scatter with no start index (the index tensor has no element; its
    elements would be 32-bit integers). -/
def cache (x : (⟨S4x8x4096x128, .f32⟩ : BufTy).Contents (Elt F)) : (⟨S4x8x4096x64, .f32⟩ : BufTy).Contents (Elt F) :=
  Host.scatter (w := 32) scatter_S4x8x4096x64_S0_S4x8x4096x64_0123_n_n_0 (fun _ b => b) (zeros (F := F)) (emptyVec S0 hz_S0) (lowHalf x)

/-- The rectangular identity: entry (r, d) is the float of the bit "r + 0 = d". -/
def eye : (⟨S64x128, .f32⟩ : BufTy).Contents (Elt F) :=
  uitofp .f32 (cmpi .eq (addi (iotaInDim S64x128 32 0) (broadcastInDim S64x128 ![] bcast_S_S64x128 (constantI S_ 32 0#32))) (iotaInDim S64x128 32 1))

/-- One result array from one argument array. -/
def result (x : (⟨S4x8x4096x128, .f32⟩ : BufTy).Contents (Elt F)) : (⟨S4x8x4096x128, .f32⟩ : BufTy).Contents (Elt F) :=
  Host.dotGeneral dot_S4x8x4096x64_S64x128_S4x8x4096x128_3_0_012_1_n_n none (cache x) (eye (F := F))

/-- @main's 19 operations, in order. -/
abbrev ops : List (HloOp τ sig (Elt F)) :=
  [ nullary main_c (emptyVec S0 hz_S0),
    nullary main_c_0 (emptyVec S0 hz_S0),
    unary main_arg0 main_v0 ((extractStridedSlice S4x8x4096x64 ![0, 0, 0, 0] · slices_S4x8x4096x128_S4x8x4096x64_0_0_0_0) : (⟨S4x8x4096x128, .f32⟩ : BufTy).Contents (Elt F) → (⟨S4x8x4096x64, .f32⟩ : BufTy).Contents (Elt F)),
    unary main_arg1 main_v1 ((extractStridedSlice S4x8x4096x64 ![0, 0, 0, 0] · slices_S4x8x4096x128_S4x8x4096x64_0_0_0_0) : (⟨S4x8x4096x128, .f32⟩ : BufTy).Contents (Elt F) → (⟨S4x8x4096x64, .f32⟩ : BufTy).Contents (Elt F)),
    nullary main_cst (constant S_ .f32 0x00000000#32),
    unary main_cst main_v2 (broadcastInDim S4x8x4096x64 ![] bcast_S_S4x8x4096x64 : (⟨S_, .f32⟩ : BufTy).Contents (Elt F) → (⟨S4x8x4096x64, .f32⟩ : BufTy).Contents (Elt F)),
    ternary main_v2 main_c main_v0 main_v3 ((fun x i u => Host.scatter scatter_S4x8x4096x64_S0_S4x8x4096x64_0123_n_n_0 (fun _ b => b) x i u) : (⟨S4x8x4096x64, .f32⟩ : BufTy).Contents (Elt F) → (⟨S0, .i32⟩ : BufTy).Contents (Elt F) → (⟨S4x8x4096x64, .f32⟩ : BufTy).Contents (Elt F) → (⟨S4x8x4096x64, .f32⟩ : BufTy).Contents (Elt F)),
    nullary main_cst_1 (constant S_ .f32 0x00000000#32),
    unary main_cst_1 main_v4 (broadcastInDim S4x8x4096x64 ![] bcast_S_S4x8x4096x64 : (⟨S_, .f32⟩ : BufTy).Contents (Elt F) → (⟨S4x8x4096x64, .f32⟩ : BufTy).Contents (Elt F)),
    ternary main_v4 main_c_0 main_v1 main_v5 ((fun x i u => Host.scatter scatter_S4x8x4096x64_S0_S4x8x4096x64_0123_n_n_0 (fun _ b => b) x i u) : (⟨S4x8x4096x64, .f32⟩ : BufTy).Contents (Elt F) → (⟨S0, .i32⟩ : BufTy).Contents (Elt F) → (⟨S4x8x4096x64, .f32⟩ : BufTy).Contents (Elt F) → (⟨S4x8x4096x64, .f32⟩ : BufTy).Contents (Elt F)),
    nullary main_v6 (iotaInDim S64x128 32 0),
    nullary main_v7 (iotaInDim S64x128 32 1),
    nullary main_c_2 (constantI S_ 32 0#32),
    unary main_c_2 main_v8 (broadcastInDim S64x128 ![] bcast_S_S64x128 : (⟨S_, .i32⟩ : BufTy).Contents (Elt F) → (⟨S64x128, .i32⟩ : BufTy).Contents (Elt F)),
    binary main_v6 main_v8 main_v9 (addi : (⟨S64x128, .i32⟩ : BufTy).Contents (Elt F) → (⟨S64x128, .i32⟩ : BufTy).Contents (Elt F) → (⟨S64x128, .i32⟩ : BufTy).Contents (Elt F)),
    binary main_v9 main_v7 main_v10 (cmpi .eq : (⟨S64x128, .i32⟩ : BufTy).Contents (Elt F) → (⟨S64x128, .i32⟩ : BufTy).Contents (Elt F) → (⟨S64x128, .i1⟩ : BufTy).Contents (Elt F)),
    unary main_v10 main_v11 (uitofp .f32 : (⟨S64x128, .i1⟩ : BufTy).Contents (Elt F) → (⟨S64x128, .f32⟩ : BufTy).Contents (Elt F)),
    binary main_v3 main_v11 main_v12 ((fun l r => Host.dotGeneral dot_S4x8x4096x64_S64x128_S4x8x4096x128_3_0_012_1_n_n none l r) : (⟨S4x8x4096x64, .f32⟩ : BufTy).Contents (Elt F) → (⟨S64x128, .f32⟩ : BufTy).Contents (Elt F) → (⟨S4x8x4096x128, .f32⟩ : BufTy).Contents (Elt F)),
    binary main_v5 main_v11 main_v13 ((fun l r => Host.dotGeneral dot_S4x8x4096x64_S64x128_S4x8x4096x128_3_0_012_1_n_n none l r) : (⟨S4x8x4096x64, .f32⟩ : BufTy).Contents (Elt F) → (⟨S64x128, .f32⟩ : BufTy).Contents (Elt F) → (⟨S4x8x4096x128, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., unary_bufs_sub .., nullary_bufs_sub .., unary_bufs_sub .., ternary_bufs_sub .., nullary_bufs_sub .., unary_bufs_sub .., ternary_bufs_sub .., nullary_bufs_sub .., nullary_bufs_sub .., nullary_bufs_sub .., unary_bufs_sub .., binary_bufs_sub .., binary_bufs_sub .., unary_bufs_sub .., binary_bufs_sub .., binary_bufs_sub ..⟩

set_option maxHeartbeats 1900000 in
/-- On every device, for any float values, from any memory with zero counters: every weakly fair execution of
    @main terminates with each result array at `result` of its argument array and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v12) = result (F := F) (m ((c.tc : Thread nD τ).loc main_arg0))
      ∧ r.2.mem ((c.tc : Thread nD τ).loc main_v13) = result (F := F) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v12).trans (by after_results <;> rfl),
      (h c main_v13).trans (by after_results <;> rfl),
      (h c main_arg0).trans (by after_results <;> rfl),
      (h c main_arg1).trans (by after_results <;> rfl),
      (h c main_arg2).trans (by after_results <;> rfl)⟩)
    (run_seq scopedRefs_eq scopedSems_eq defs main (fun _ => ops) main_eq (fun _ => ops_sub) m ρ)

end Cert.ReferenceIdeal.RefRun

end
-- ==== Proof.LibScatterSet.lean ====
/-
  Reading a "set" scatter at one element.

  `Host.scatter d (fun _ b => b) x idx upd` walks through the update positions in row-major order;
  each position whose target lies inside the operand overwrites that target with the update's
  element. This module says what is found at an element `i` afterwards:

  * if no update position targets `i`, the operand's element `x i` is still there;
  * if exactly one update position `j` targets `i`, the update's element `upd j` is there.

  Both are instances of the same statement about the left fold over ANY list of positions, proved
  by induction on the list: a position that does not target `i` leaves element `i` alone, and
  after the one position that does target `i` nothing touches it again.

  The last part specialises this to writing an [R, n] block into columns `off … off + n − 1` of an
  [R, C] matrix (one start index, both update axes window axes, the start index naming the
  column axis): inside the column range the block is read, outside it the operand.
-/
import Idealize.ShloMosaic.PureOps.ShapeOps
import Idealize.ShloMosaic.Lib.ValueIdx

namespace Idealize.ShloMosaic.ScatterSet

open Idealize.ShloMosaic Idealize.ShloMosaic.ValueIdx

section Fold
variable {s si u : Shape} {w : ℕ} {α : Type}

/-- One step of the scatter's fold with the overwriting body: position `n` of the update, when its
    target is inside the operand, replaces the element there. -/
def step (d : ScatterDims s si u) (idx : IVec si w) (upd : u.Idx → α) (r : s.Idx → α) (n : Fin u.numel) :
    s.Idx → α :=
  match d.resultIdx? (u.rowMajor.symm n) idx with
  | some i => fun i' => if i' = i then upd (u.rowMajor.symm n) else r i'
  | none => r

theorem scatter_eq_foldl (d : ScatterDims s si u) (x : s.Idx → α) (idx : IVec si w) (upd : u.Idx → α) :
    Host.scatter d (fun _ b => b) x idx upd = (List.finRange u.numel).foldl (step d idx upd) x := rfl

/-- A step whose position does not target `i` leaves element `i` as it was. -/
theorem step_of_ne (d : ScatterDims s si u) (idx : IVec si w) (upd : u.Idx → α) (r : s.Idx → α)
    (n : Fin u.numel) (i : s.Idx) (h : d.resultIdx? (u.rowMajor.symm n) idx ≠ some i) :
    step d idx upd r n i = r i := by
  unfold step
  generalize d.resultIdx? (u.rowMajor.symm n) idx = o at h
  cases o with
  | none => rfl
  | some i0 =>
    show (if i = i0 then _ else _) = _
    rw [if_neg]
    rintro rfl
    exact h rfl

/-- A step whose position targets `i` puts the update's element there. -/
theorem step_of_eq (d : ScatterDims s si u) (idx : IVec si w) (upd : u.Idx → α) (r : s.Idx → α)
    (n : Fin u.numel) (i : s.Idx) (h : d.resultIdx? (u.rowMajor.symm n) idx = some i) :
    step d idx upd r n i = upd (u.rowMajor.symm n) := by
  unfold step
  rw [h]
  exact if_pos rfl

/-- Folding over positions none of which targets `i` leaves element `i` as it was. -/
theorem foldl_of_miss (d : ScatterDims s si u) (idx : IVec si w) (upd : u.Idx → α) (i : s.Idx)
    (l : List (Fin u.numel)) (r : s.Idx → α)
    (h : ∀ n ∈ l, d.resultIdx? (u.rowMajor.symm n) idx ≠ some i) :
    l.foldl (step d idx upd) r i = r i := by
  induction l generalizing r with
  | nil => rfl
  | cons n l ih =>
    rw [List.foldl_cons, ih _ (fun n' hn' => h n' (List.mem_cons_of_mem _ hn'))]
    exact step_of_ne d idx upd r n i (h n (List.mem_cons_self ..))

/-- Folding over distinct positions exactly one of which, `n₀`, targets `i` leaves the update's
    element at `n₀` there. -/
theorem foldl_of_hit (d : ScatterDims s si u) (idx : IVec si w) (upd : u.Idx → α) (i : s.Idx)
    (l : List (Fin u.numel)) (r : s.Idx → α) (n₀ : Fin u.numel) (hmem : n₀ ∈ l) (hnd : l.Nodup)
    (hhit : d.resultIdx? (u.rowMajor.symm n₀) idx = some i)
    (huniq : ∀ n ∈ l, d.resultIdx? (u.rowMajor.symm n) idx = some i → n = n₀) :
    l.foldl (step d idx upd) r i = upd (u.rowMajor.symm n₀) := by
  induction l generalizing r with
  | nil => exact absurd hmem (List.not_mem_nil)
  | cons n l ih =>
    rw [List.foldl_cons]
    have hnd' := List.nodup_cons.1 hnd
    by_cases hn : n = n₀
    · subst hn
      rw [foldl_of_miss d idx upd i l _ (fun n' hn' h' => hnd'.1 (huniq n' (List.mem_cons_of_mem _ hn') h' ▸ hn'))]
      exact step_of_eq d idx upd r n i hhit
    · have hmem' : n₀ ∈ l := by
        rcases List.mem_cons.1 hmem with h | h
        · exact absurd h.symm hn
        · exact h
      exact ih _ hmem' hnd'.2 (fun n' hn' => huniq n' (List.mem_cons_of_mem _ hn'))

/-- An element no update position targets keeps the operand's value. -/
theorem scatter_set_of_miss (d : ScatterDims s si u) (x : s.Idx → α) (idx : IVec si w) (upd : u.Idx → α)
    (i : s.Idx) (h : ∀ j : u.Idx, d.resultIdx? j idx ≠ some i) :
    Host.scatter d (fun _ b => b) x idx upd i = x i := by
  rw [scatter_eq_foldl]
  exact foldl_of_miss d idx upd i _ x (fun n _ => h _)

/-- An element exactly one update position `j` targets holds the update's element at `j`. -/
theorem scatter_set_of_hit (d : ScatterDims s si u) (x : s.Idx → α) (idx : IVec si w) (upd : u.Idx → α)
    (i : s.Idx) (j : u.Idx) (hj : d.resultIdx? j idx = some i)
    (huniq : ∀ j' : u.Idx, d.resultIdx? j' idx = some i → j' = j) :
    Host.scatter d (fun _ b => b) x idx upd i = upd j := by
  rw [scatter_eq_foldl]
  have e : u.rowMajor.symm (u.rowMajor j) = j := u.rowMajor.symm_apply_apply j
  rw [foldl_of_hit d idx upd i _ x (u.rowMajor j) (List.mem_finRange _) (List.nodup_finRange _)
    (by rw [e]; exact hj)
    (fun n _ hn => by
      have := huniq _ hn
      rw [← this]; exact (u.rowMajor.apply_symm_apply n).symm), e]

end Fold

section Columns
variable {w : ℕ} {α : Type} {R C n : ℕ}

/-- The dimension numbers of writing an [R, n] block into a column range of an [R, C] matrix at ONE
    start index: both update axes are window axes, no operand axis is inserted, and the start index's
    one component is a position on the column axis. -/
def IsColumnWrite (d : ScatterDims ⟨2, ![R, C]⟩ ⟨1, ![1]⟩ ⟨2, ![R, n]⟩) : Prop :=
  d.updateWindowDims = [0, 1] ∧ d.insertedWindowDims = [] ∧ d.scatterDimsToOperandDims = [1] ∧ d.indexVectorDim = 0

/-- With no axis removed every axis is kept. -/
theorem mem_kept_nil {s : Shape} (a : Fin s.rank) : a ∈ s.kept [] := by
  simp [Shape.kept]

theorem start_row (d : ScatterDims ⟨2, ![R, C]⟩ ⟨1, ![1]⟩ ⟨2, ![R, n]⟩) (hd : IsColumnWrite d)
    (j : (⟨2, ![R, n]⟩ : Shape).Idx) (idx : IVec ⟨1, ![1]⟩ w) : d.start j idx (0 : Fin 2) = 0 := by
  obtain ⟨uw, iw, sd, iv, wf⟩ := d
  obtain ⟨h1, h2, h3, h4⟩ := hd
  simp only at h1 h2 h3 h4
  subst h1 h2 h3 h4
  unfold ScatterDims.start
  exact dif_neg (show ¬ ((0 : Fin 2) ∈ ([1] : List (Fin 2))) by decide)

theorem start_col (d : ScatterDims ⟨2, ![R, C]⟩ ⟨1, ![1]⟩ ⟨2, ![R, n]⟩) (hd : IsColumnWrite d)
    (j : (⟨2, ![R, n]⟩ : Shape).Idx) (idx : IVec ⟨1, ![1]⟩ w) (off : ℤ) (hidx : ∀ k, (idx k).toInt = off) :
    d.start j idx (1 : Fin 2) = off := by
  obtain ⟨uw, iw, sd, iv, wf⟩ := d
  obtain ⟨h1, h2, h3, h4⟩ := hd
  simp only at h1 h2 h3 h4
  subst h1 h2 h3 h4
  unfold ScatterDims.start
  exact (dif_pos (show (1 : Fin 2) ∈ ([1] : List (Fin 2)) by decide)).trans (hidx _)

theorem window_row (d : ScatterDims ⟨2, ![R, C]⟩ ⟨1, ![1]⟩ ⟨2, ![R, n]⟩) (hd : IsColumnWrite d)
    (j : (⟨2, ![R, n]⟩ : Shape).Idx) : d.window j (0 : Fin 2) = (j 0).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

theorem window_col (d : ScatterDims ⟨2, ![R, C]⟩ ⟨1, ![1]⟩ ⟨2, ![R, n]⟩) (hd : IsColumnWrite d)
    (j : (⟨2, ![R, n]⟩ : Shape).Idx) : d.window j (1 : Fin 2) = (j 1).val := by
  obtain ⟨uw, iw, sd, iv, wf⟩ := d
  obtain ⟨h1, h2, h3, h4⟩ := hd
  simp only at h1 h2 h3 h4
  subst h1 h2 h3 h4
  unfold ScatterDims.window
  exact (dif_pos (mem_kept_nil _)).trans rfl

/-- Where update position `j` lands: same row, column `off` further right. -/
theorem resultIdx?_columns (d : ScatterDims ⟨2, ![R, C]⟩ ⟨1, ![1]⟩ ⟨2, ![R, n]⟩) (hd : IsColumnWrite d)
    (off : ℕ) (hoff : off + n ≤ C) (idx : IVec ⟨1, ![1]⟩ w) (hidx : ∀ k, (idx k).toInt = (off : ℤ))
    (j : (⟨2, ![R, n]⟩ : Shape).Idx) :
    d.resultIdx? j idx
      = some (ix2 (⟨(j 0).val, idx2_lt0 j⟩ : Fin R) (⟨off + (j 1).val, by have := idx2_lt1 j; omega⟩ : Fin C)) := by
  have h0 : d.start j idx (0 : Fin 2) + d.window j (0 : Fin 2) = ((j 0).val : ℤ) := by
    rw [start_row d hd, window_row d hd]; simp
  have h1 : d.start j idx (1 : Fin 2) + d.window j (1 : Fin 2) = ((off + (j 1).val : ℕ) : ℤ) := by
    rw [start_col d hd j idx off hidx, window_col d hd]; simp
  have l0 := idx2_lt0 j
  have l1 := idx2_lt1 j
  unfold ScatterDims.resultIdx?
  rw [dif_pos (Fin.forall_fin_two.2
    ⟨⟨by rw [h0]; omega, by rw [h0]; show ((j 0).val : ℤ) < (R : ℤ); omega⟩,
     ⟨by rw [h1]; omega, by rw [h1]; show ((off + (j 1).val : ℕ) : ℤ) < (C : ℤ); omega⟩⟩)]
  congr 1
  funext a
  revert a
  refine Fin.forall_fin_two.2 ⟨?_, ?_⟩
  · exact Fin.ext (by show (d.start j idx (0 : Fin 2) + d.window j (0 : Fin 2)).toNat = (j 0).val; rw [h0]; omega)
  · exact Fin.ext (by show (d.start j idx (1 : Fin 2) + d.window j (1 : Fin 2)).toNat = off + (j 1).val; rw [h1]; omega)

/-- Inside the column range the written block is read. -/
theorem scatter_columns_inside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin n) :
    Host.scatter d (fun _ b => b) x idx upd (ix2 r (⟨off + c.val, by have := c.isLt; omega⟩ : Fin C)) = upd (ix2 r c) := by
  refine scatter_set_of_hit d x idx upd _ (ix2 r c) ?_ ?_
  · rw [resultIdx?_columns d hd off hoff idx hidx]
    rfl
  · intro j' hj'
    rw [resultIdx?_columns d hd off hoff idx hidx] at hj'
    have e := Option.some.inj hj'
    have e0 : (j' 0).val = r.val := congrArg Fin.val (congrFun e (0 : Fin 2))
    have e1 : off + (j' 1).val = off + c.val := congrArg Fin.val (congrFun e (1 : Fin 2))
    funext a
    match a with
    | ⟨0, _⟩ => exact Fin.ext e0
    | ⟨1, _⟩ => exact Fin.ext (by show (j' 1).val = c.val; omega)

/-- Outside the column range the operand is read. -/
theorem scatter_columns_outside (d : ScatterDims ⟨2, ![R, C]⟩ ⟨1, ![1]⟩ ⟨2, ![R, n]⟩) (hd : IsColumnWrite d)
    (off : ℕ) (hoff : off + n ≤ C) (x : (⟨2, ![R, C]⟩ : Shape).Idx → α) (idx : IVec ⟨1, ![1]⟩ w)
    (hidx : ∀ k, (idx k).toInt = (off : ℤ)) (upd : (⟨2, ![R, n]⟩ : Shape).Idx → α) (r : Fin R) (c : Fin C)
    (hc : c.val < off ∨ off + n ≤ c.val) :
    Host.scatter d (fun _ b => b) x idx upd (ix2 r c) = x (ix2 r c) := by
  refine scatter_set_of_miss d x idx upd _ ?_
  intro j hj
  rw [resultIdx?_columns d hd off hoff idx hidx] at hj
  have e1 : off + (j 1).val = c.val := congrArg Fin.val (congrFun (Option.some.inj hj) (1 : Fin 2))
  have := idx2_lt1 j
  omega

end Columns

end Idealize.ShloMosaic.ScatterSet
-- ==== Proof.LibScatterWhole.lean ====
/-
  A "set" scatter that replaces the whole operand.

  When a scatter has NO start index at all (its index tensor is empty: the list of operand axes the
  start index names is empty), every update axis is a window axis in its natural order, no operand
  axis is inserted, and the update has the operand's own shape, then update position `j` lands at
  operand position `j`: the start is `0` on every axis and the window coordinate on axis `a` is
  `j a`. Every operand position is therefore targeted by exactly one update position — itself — and
  the scatter with the overwriting body returns the update, whatever the operand held. This is what
  `zeros.at[:, :, :, :].set(u)` computes when the slice is the whole array.

  Stated for rank four, the sizes arbitrary.
-/
import proofs.«101398_j13932873908527_1_alg».proof.Proof.LibScatterSet

namespace Idealize.ShloMosaic.ScatterSet

open Idealize.ShloMosaic

section Whole
variable {w : ℕ} {α : Type} {n0 n1 n2 n3 : ℕ}

/-- The dimension numbers of overwriting a whole rank-four operand from an update of the same shape:
    all four update axes are window axes, in order; nothing is inserted; the start index has no
    component (the index tensor is empty). -/
def IsWholeWrite (d : ScatterDims ⟨4, ![n0, n1, n2, n3]⟩ ⟨1, ![0]⟩ ⟨4, ![n0, n1, n2, n3]⟩) : Prop :=
  d.updateWindowDims = [0, 1, 2, 3] ∧ d.insertedWindowDims = [] ∧ d.scatterDimsToOperandDims = [] ∧ d.indexVectorDim = 0

/-- No axis is named by the (empty) start index, so every start is `0`. -/
theorem start_whole (d : ScatterDims ⟨4, ![n0, n1, n2, n3]⟩ ⟨1, ![0]⟩ ⟨4, ![n0, n1, n2, n3]⟩) (hd : IsWholeWrite d)
    (j : (⟨4, ![n0, n1, n2, n3]⟩ : Shape).Idx) (idx : IVec ⟨1, ![0]⟩ w) (a : Fin 4) : d.start j idx a = 0 := by
  obtain ⟨uw, iw, sd, iv, wf⟩ := d
  obtain ⟨h1, h2, h3, h4⟩ := hd
  simp only at h1 h2 h3 h4
  subst h1 h2 h3 h4
  unfold ScatterDims.start
  exact dif_neg (List.not_mem_nil)

/-- The window coordinate on axis `a` is the update position's own coordinate there. -/
theorem window_whole (d : ScatterDims ⟨4, ![n0, n1, n2, n3]⟩ ⟨1, ![0]⟩ ⟨4, ![n0, n1, n2, n3]⟩) (hd : IsWholeWrite d)
    (j : (⟨4, ![n0, n1, n2, n3]⟩ : Shape).Idx) (a : Fin 4) : d.window j a = (j a).val := by
  obtain ⟨uw, iw, sd, iv, wf⟩ := d
  obtain ⟨h1, h2, h3, h4⟩ := hd
  simp only at h1 h2 h3 h4
  subst h1 h2 h3 h4
  unfold ScatterDims.window
  match a with
  | ⟨0, _⟩ => exact (dif_pos (mem_kept_nil _)).trans rfl
  | ⟨1, _⟩ => exact (dif_pos (mem_kept_nil _)).trans rfl
  | ⟨2, _⟩ => exact (dif_pos (mem_kept_nil _)).trans rfl
  | ⟨3, _⟩ => exact (dif_pos (mem_kept_nil _)).trans rfl

/-- Update position `j` lands at operand position `j`. -/
theorem resultIdx?_whole (d : ScatterDims ⟨4, ![n0, n1, n2, n3]⟩ ⟨1, ![0]⟩ ⟨4, ![n0, n1, n2, n3]⟩) (hd : IsWholeWrite d)
    (idx : IVec ⟨1, ![0]⟩ w) (j : (⟨4, ![n0, n1, n2, n3]⟩ : Shape).Idx) :
    d.resultIdx? j idx = some j := by
  have hsum : ∀ a : Fin 4, d.start j idx a + d.window j a = ((j a).val : ℤ) := fun a => by
    rw [start_whole d hd, window_whole d hd]; simp
  unfold ScatterDims.resultIdx?
  rw [dif_pos (fun a => by
    rw [hsum a]
    exact ⟨Int.natCast_nonneg _, Int.ofNat_lt.2 (j a).isLt⟩)]
  congr 1
  funext a
  exact Fin.ext (by
    show (d.start j idx a + d.window j a).toNat = (j a).val
    rw [hsum a]; exact Int.toNat_natCast _)

/-- The scatter returns the update: each operand position is overwritten once, by the update's
    element at the same position. -/
theorem scatter_whole (d : ScatterDims ⟨4, ![n0, n1, n2, n3]⟩ ⟨1, ![0]⟩ ⟨4, ![n0, n1, n2, n3]⟩) (hd : IsWholeWrite d)
    (x : (⟨4, ![n0, n1, n2, n3]⟩ : Shape).Idx → α) (idx : IVec ⟨1, ![0]⟩ w)
    (upd : (⟨4, ![n0, n1, n2, n3]⟩ : Shape).Idx → α) :
    Host.scatter d (fun _ b => b) x idx upd = upd := by
  funext i
  refine scatter_set_of_hit d x idx upd i i (resultIdx?_whole d hd idx i) ?_
  intro j' hj'
  rw [resultIdx?_whole d hd idx j'] at hj'
  exact Option.some.inj hj'

end Whole

end Idealize.ShloMosaic.ScatterSet
-- ==== Proof.RefValue.lean ====
/-
  The reference's result, index by index.

  Four readings, one per stage of the reference, and their composition:
  * cutting the first 64 entries of each row reads the argument at the same four coordinates
    (`lowHalf_apply`);
  * the scatter that writes that whole piece over an array of zeros returns the piece (`cache_eq`): it
    has no start index, so update position `j` overwrites position `j`;
  * the rectangular identity's entry (r, d) is 1 when r = d and 0 otherwise (`eye_apply`): the two
    iotas are the coordinates as 32-bit integers, adding the integer 0 changes nothing, two numbers
    below 2³² are equal exactly when their 32-bit words are, and the float of the one-bit answer is 1
    or 0;
  * the contraction at (b, h, s, d) is the sum over k < 64 of piece (b, h, s, k) times identity (k, d)
    (`result_apply`).
  Together: the sum of `x (b, h, s, k) · [k = d]` over k < 64, which is `x (b, h, s, d)` for d < 64 and
  0 for d ≥ 64 — the masked copy `keepLow x`.
-/
import proofs.«101398_j13932873908527_1_alg».proof.Proof.RefRun
import proofs.«101398_j13932873908527_1_alg».proof.Proof.LaneMask
import proofs.«101398_j13932873908527_1_alg».proof.Proof.LibScatterWhole
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The cut -/

/-- A position of the half-width array, as a position of the full-width one: the same coordinates. -/
abbrev widen (i : S4x8x4096x64.Idx) : S4x8x4096x128.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨(i 3).val, by have h3 : (i 3).val < 64 := (i 3).isLt; show (i 3).val < 128; omega⟩

theorem lowHalf_apply (x : (⟨S4x8x4096x128, .f32⟩ : BufTy).Contents (Elt F)) (i : S4x8x4096x64.Idx) :
    lowHalf (F := F) x i = x (widen i) := by
  unfold lowHalf
  exact extractStridedSlice_apply ![0, 0, 0, 0] x slices_S4x8x4096x128_S4x8x4096x64_0_0_0_0 i (widen i) (fun a => match a with
    | ⟨0, _⟩ => by show (i 0).val = 0 + (i 0).val; omega
    | ⟨1, _⟩ => by show (i 1).val = 0 + (i 1).val; omega
    | ⟨2, _⟩ => by show (i 2).val = 0 + (i 2).val; omega
    | ⟨3, _⟩ => by show (i 3).val = 0 + (i 3).val; omega)

/-! ## The write over the zeros -/

/-- The whole piece written over the zeros is the piece. -/
theorem cache_eq (x : (⟨S4x8x4096x128, .f32⟩ : BufTy).Contents (Elt F)) : cache (F := F) x = lowHalf x := by
  unfold cache
  exact ScatterSet.scatter_whole _ ⟨rfl, rfl, rfl, rfl⟩ _ _ _

/-! ## The rectangular identity -/

/-- Two numbers below 2³², the first with the integer 0 added, have equal 32-bit words exactly when they are
    equal; the answer bit as a number is 1 or 0. -/
theorem diag_bit (r d : ℕ) (hr : r < 64) (hd : d < 128) :
    (IntOp.cmpi .eq (IntOp.addi (BitVec.ofNat 32 r) 0#32) (BitVec.ofNat 32 d)).toNat = if r = d then 1 else 0 := by
  unfold IntOp.cmpi IntOp.addi
  rw [BitVec.add_zero]
  by_cases h : r = d
  · subst h
    rw [if_pos rfl]
    simp
  · rw [if_neg h]
    have hne : BitVec.ofNat 32 r ≠ BitVec.ofNat 32 d := by
      intro e
      have e' := congrArg BitVec.toNat e
      rw [BitVec.toNat_ofNat, BitVec.toNat_ofNat, Nat.mod_eq_of_lt (by omega), Nat.mod_eq_of_lt (by omega)] at e'
      exact h e'
    simp [hne]

theorem eye_apply (q : S64x128.Idx) :
    eye (F := Ideal) q = if (q 0).val = (q 1).val then (1 : EReal) else 0 := by
  have hb : (broadcastInDim S64x128 ![] bcast_S_S64x128 (constantI S_ 32 0#32)) q = 0#32 :=
    broadcastInDim_apply _ bcast_S_S64x128 (constantI S_ 32 0#32) q (fun a => a.elim0) (fun a => a.elim0)
  show (((IntOp.cmpi .eq (IntOp.addi (BitVec.ofNat 32 (q 0).val) ((broadcastInDim S64x128 ![] bcast_S_S64x128 (constantI S_ 32 0#32)) q)) (BitVec.ofNat 32 (q 1).val)).toNat : ℝ) : EReal) = _
  rw [hb, diag_bit _ _ (q 0).isLt (q 1).isLt]
  split <;> simp

/-! ## The contraction -/

theorem lhs_0 (i : S4x8x4096x128.Idx) (q : dot_S4x8x4096x64_S64x128_S4x8x4096x128_3_0_012_1_n_n.contr.Idx) :
    (dot_S4x8x4096x64_S64x128_S4x8x4096x128_3_0_012_1_n_n.lhsIdx i q 0).val = (i 0).val := by
  unfold DotDims.lhsIdx
  rw [dif_neg (show ¬(0 : Fin S4x8x4096x64.rank) ∈ dot_S4x8x4096x64_S64x128_S4x8x4096x128_3_0_012_1_n_n.lhsBatch by decide), dif_pos (show (0 : Fin S4x8x4096x64.rank) ∈ dot_S4x8x4096x64_S64x128_S4x8x4096x128_3_0_012_1_n_n.lhsNonContracting by decide)]
  rfl
theorem lhs_1 (i : S4x8x4096x128.Idx) (q : dot_S4x8x4096x64_S64x128_S4x8x4096x128_3_0_012_1_n_n.contr.Idx) :
    (dot_S4x8x4096x64_S64x128_S4x8x4096x128_3_0_012_1_n_n.lhsIdx i q 1).val = (i 1).val := by
  unfold DotDims.lhsIdx
  rw [dif_neg (show ¬(1 : Fin S4x8x4096x64.rank) ∈ dot_S4x8x4096x64_S64x128_S4x8x4096x128_3_0_012_1_n_n.lhsBatch by decide), dif_pos (show (1 : Fin S4x8x4096x64.rank) ∈ dot_S4x8x4096x64_S64x128_S4x8x4096x128_3_0_012_1_n_n.lhsNonContracting by decide)]
  rfl
theorem lhs_2 (i : S4x8x4096x128.Idx) (q : dot_S4x8x4096x64_S64x128_S4x8x4096x128_3_0_012_1_n_n.contr.Idx) :
    (dot_S4x8x4096x64_S64x128_S4x8x4096x128_3_0_012_1_n_n.lhsIdx i q 2).val = (i 2).val := by
  unfold DotDims.lhsIdx
  rw [dif_neg (show ¬(2 : Fin S4x8x4096x64.rank) ∈ dot_S4x8x4096x64_S64x128_S4x8x4096x128_3_0_012_1_n_n.lhsBatch by decide), dif_pos (show (2 : Fin S4x8x4096x64.rank) ∈ dot_S4x8x4096x64_S64x128_S4x8x4096x128_3_0_012_1_n_n.lhsNonContracting by decide)]
  rfl
theorem lhs_3 (i : S4x8x4096x128.Idx) (q : dot_S4x8x4096x64_S64x128_S4x8x4096x128_3_0_012_1_n_n.contr.Idx) :
    (dot_S4x8x4096x64_S64x128_S4x8x4096x128_3_0_012_1_n_n.lhsIdx i q 3).val = (q ⟨0, by decide⟩).val :=
  dot_S4x8x4096x64_S64x128_S4x8x4096x128_3_0_012_1_n_n.lhsIdx_val_of_single rfl i q
theorem rhs_0 (i : S4x8x4096x128.Idx) (q : dot_S4x8x4096x64_S64x128_S4x8x4096x128_3_0_012_1_n_n.contr.Idx) :
    (dot_S4x8x4096x64_S64x128_S4x8x4096x128_3_0_012_1_n_n.rhsIdx i q 0).val = (q ⟨0, by decide⟩).val :=
  dot_S4x8x4096x64_S64x128_S4x8x4096x128_3_0_012_1_n_n.rhsIdx_val_of_single rfl i q
theorem rhs_1 (i : S4x8x4096x128.Idx) (q : dot_S4x8x4096x64_S64x128_S4x8x4096x128_3_0_012_1_n_n.contr.Idx) :
    (dot_S4x8x4096x64_S64x128_S4x8x4096x128_3_0_012_1_n_n.rhsIdx i q 1).val = (i 3).val := by
  unfold DotDims.rhsIdx
  rw [dif_neg (show ¬(1 : Fin S64x128.rank) ∈ dot_S4x8x4096x64_S64x128_S4x8x4096x128_3_0_012_1_n_n.rhsBatch by decide), dif_pos (show (1 : Fin S64x128.rank) ∈ dot_S4x8x4096x64_S64x128_S4x8x4096x128_3_0_012_1_n_n.rhsNonContracting by decide)]
  rfl

/-- The piece's position the contraction reads for output position `i` and summation index `k`: row (b, h, s),
    entry `k`. -/
abbrev rowAt (i : S4x8x4096x128.Idx) (k : Fin 64) : S4x8x4096x64.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨k.val, k.isLt⟩
/-- The identity's position it reads: (k, d), `d` the output's last coordinate. -/
abbrev cellAt (i : S4x8x4096x128.Idx) (k : Fin 64) : S64x128.Idx := fun a => match a with
  | ⟨0, _⟩ => ⟨k.val, k.isLt⟩
  | ⟨1, _⟩ => ⟨(i 3).val, (i 3).isLt⟩

/-- On the extended reals the host's contraction is the plain sum of products over the one contracted axis. -/
theorem result_apply (x : (⟨S4x8x4096x128, .f32⟩ : BufTy).Contents (Elt Ideal)) (i : S4x8x4096x128.Idx) :
    result (F := Ideal) x i = ∑ k : Fin 64, (cache (F := Ideal) x) (rowAt i k) * (eye (F := Ideal)) (cellAt i k) := by
  unfold result
  generalize cache (F := Ideal) x = y0
  generalize eye (F := Ideal) = y1
  simp only [Host.dotGeneral]
  rw [Ideal.dotGeneral_apply, ← Equiv.sum_comp (ValueIdx.contrEquiv1 dot_S4x8x4096x64_S64x128_S4x8x4096x128_3_0_012_1_n_n 64 rfl rfl).symm]
  refine Finset.sum_congr rfl fun k _ => ?_
  have hk := ValueIdx.contrEquiv1_symm_val dot_S4x8x4096x64_S64x128_S4x8x4096x128_3_0_012_1_n_n 64 rfl rfl k
  have el : dot_S4x8x4096x64_S64x128_S4x8x4096x128_3_0_012_1_n_n.lhsIdx i ((ValueIdx.contrEquiv1 dot_S4x8x4096x64_S64x128_S4x8x4096x128_3_0_012_1_n_n 64 rfl rfl).symm k) = rowAt i k := funext fun a => Fin.ext (by
    match a with
    | ⟨0, _⟩ => exact lhs_0 _ _
    | ⟨1, _⟩ => exact lhs_1 _ _
    | ⟨2, _⟩ => exact lhs_2 _ _
    | ⟨3, _⟩ => exact (lhs_3 _ _).trans hk)
  have er : dot_S4x8x4096x64_S64x128_S4x8x4096x128_3_0_012_1_n_n.rhsIdx i ((ValueIdx.contrEquiv1 dot_S4x8x4096x64_S64x128_S4x8x4096x128_3_0_012_1_n_n 64 rfl rfl).symm k) = cellAt i k := funext fun a => Fin.ext (by
    match a with
    | ⟨0, _⟩ => exact (rhs_0 _ _).trans hk
    | ⟨1, _⟩ => exact rhs_1 _ _)
  rw [el, er]

/-! ## The reference computes the masked copy -/

theorem result_eq (x : (⟨S4x8x4096x128, .f32⟩ : BufTy).Contents (Elt Ideal)) :
    result (F := Ideal) x = Cert.LaneMask.keepLow x := by
  funext i
  rw [result_apply, cache_eq]
  simp only [lowHalf_apply, eye_apply]
  refine (Cert.LaneMask.sum_mul_diag (fun k => x (widen (rowAt i k))) (i 3).val).trans ?_
  unfold Cert.LaneMask.keepLow
  split
  · rename_i h
    exact congrArg x (funext fun a => Fin.ext (by
      match a with
      | ⟨0, _⟩ => rfl
      | ⟨1, _⟩ => rfl
      | ⟨2, _⟩ => rfl
      | ⟨3, _⟩ => rfl))
  · rfl

end Cert.ReferenceIdeal.RefValue

end
-- ==== Proof.lean ====
/-
  Two programs that keep the first 64 entries of every 128-entry row of two f32[4, 8, 4096, 128] arrays and zero the
  other 64 — and the proof that they agree on the extended reals.

  The kernel runs a 4 × 8 grid; each point loads one whole 4096 × 128 plane of each argument, selects by a lane mask
  (lane number below 64: the loaded entry; otherwise the float zero) and stores the plane of each result. The
  reference cuts the first 64 entries of each row, writes that whole piece over an array of zeros, and contracts it
  with the 64 × 128 matrix that has ones on the diagonal and zeros elsewhere.

  * The three frames: each program terminates, faults nowhere and leaves its arguments as they were — the two
    kernel programs by their generated frame certificates, the reference by its run with the results dropped.
  * The idealization rewrote nothing, so that conjunct is `True`.
  * Equal results: the kernel's result arrays are `keepLow` of its arguments (Proof/KernelValue.lean: what each
    grid point writes back is a plane of `keepLow`, and the 32 planes tile the array); the reference's are
    `result` of its arguments (Proof/RefRun.lean), and `result = keepLow` (Proof/RefValue.lean): the write over the
    zeros returns the piece, the matrix's entry (k, d) is 1 when k = d and 0 otherwise, and the sum over k < 64 of
    `x k · [k = d]` is `x d` for d < 64 and 0 for d ≥ 64 (Proof/LaneMask.lean), since `y · 1 = y` and `y · 0 = 0` for
    every extended real `y`. The precondition (finite inputs) is not needed for this.
-/
import proofs.«101398_j13932873908527_1_alg».proof.Defs
import proofs.«101398_j13932873908527_1_alg».proof.Proof.Gen.Kernel
import proofs.«101398_j13932873908527_1_alg».proof.Proof.Gen.Kernel.Skeleton
import proofs.«101398_j13932873908527_1_alg».proof.Proof.Gen.Kernel.Launch
import proofs.«101398_j13932873908527_1_alg».proof.Proof.Gen.Kernel.Points
import proofs.«101398_j13932873908527_1_alg».proof.Proof.Gen.Kernel.Frame
import proofs.«101398_j13932873908527_1_alg».proof.Proof.Gen.KernelIdeal
import proofs.«101398_j13932873908527_1_alg».proof.Proof.Gen.KernelIdeal.Skeleton
import proofs.«101398_j13932873908527_1_alg».proof.Proof.Gen.KernelIdeal.Launch
import proofs.«101398_j13932873908527_1_alg».proof.Proof.Gen.KernelIdeal.Points
import proofs.«101398_j13932873908527_1_alg».proof.Proof.Gen.KernelIdeal.Frame
import proofs.«101398_j13932873908527_1_alg».proof.Proof.Gen.KernelIdeal.Value
import proofs.«101398_j13932873908527_1_alg».proof.Proof.Gen.ReferenceIdeal
import proofs.«101398_j13932873908527_1_alg».proof.Proof.Gen.Pre_finite_inputs
import proofs.«101398_j13932873908527_1_alg».proof.Proof.KernelValue
import proofs.«101398_j13932873908527_1_alg».proof.Proof.RefRun
import proofs.«101398_j13932873908527_1_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the two result arrays dropped from the post. -/
theorem frame_referenceIdeal : Cert.frame_ReferenceIdeal := fun m ρ _ =>
  (θ_run Cert.ReferenceIdeal.defs _ _).mono (fun _ h c => (h c).2.2) (Cert.ReferenceIdeal.RefRun.run (F := Ideal) m ρ)

/-- From memories that agree on the arguments the kernel's result arrays end at the masked copies of the arguments,
    and the reference's at `result` of the same arguments, which is the masked copy. -/
theorem algebraic : Cert.algebraic_KernelIdeal_ReferenceIdeal := by
  intro m ρ m' ρ' _ hagree
  refine ⟨_, _, Cert.KernelIdeal.Masked.run m ρ, ?_⟩
  refine (θ_run Cert.ReferenceIdeal.defs _ _).mono (fun _ h c => ⟨(h c).1.trans ?_, (h c).2.1.trans ?_, (h c).2.2⟩)
    (Cert.ReferenceIdeal.RefRun.run (F := Ideal) m' ρ')
  · rw [(hagree c).1]
    exact Cert.ReferenceIdeal.RefValue.result_eq _
  · rw [(hagree c).2.1]
    exact Cert.ReferenceIdeal.RefValue.result_eq _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
